-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  reducesTo_S4096x2048_S_d0_1 : S4096x2048.ReducesTo [0, 1] S_
  h_S_ : 0 < S_.numel

variable [Facts]

def fn {F : FTy → Type} [FloatOps F] (main_arg0 : FVec F S4096x2048 .f32) (main_arg1 : FVec F S4096x2048 .f32) (main_arg2 : FVec F S4096x2048 .f32) : IVec S_ 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_c : IVec S_ 1 := constantI S_ 1 1#1
  let main_v3 : IVec S_ 1 := (fun x v => Host.reduce IntOp.andi x v reducesTo_S4096x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  main_v13
-- ==== Kernel.lean ====
abbrev S4096x2048 : Shape := ⟨2, ![4096, 2048]⟩
abbrev S1x2048 : Shape := ⟨2, ![1, 2048]⟩
abbrev S1x1 : Shape := ⟨2, ![1, 1]⟩
abbrev S1 : Shape := ⟨1, ![1]⟩
abbrev S_ : Shape := ⟨0, ![]⟩

abbrev nBuf : Space → Nat
  | .hbm => 8
  | .vmem => 4
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x1, .f32⟩
  | .hbm, ⟨7, _⟩ => ⟨S_, .f32⟩
  | .local _ .vmem, ⟨0, _⟩ => ⟨S1x2048, .f32⟩
  | .local _ .vmem, ⟨1, _⟩ => ⟨S1x2048, .f32⟩
  | .local _ .vmem, ⟨2, _⟩ => ⟨S1x2048, .f32⟩
  | .local _ .vmem, ⟨3, _⟩ => ⟨S1x1, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  slices_S4096x2048_S1x2048_4095_0 : S4096x2048.Slices ![4095, 0] S1x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  reduces_S1x2048_S1 : S1x2048.Reduces [1] S1
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S_ : S1x1.ShapeCasts S_
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x2048.size a ≤ S1x2048.size a
  hwx0_0 : ∀ i : grid0.Coords, EltTy.bits .f32 = 32 ∨ (Rect.block (s := S1x2048) S1x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048.size a ≤ S1x2048.size a
  hwx0_1 : ∀ i : grid0.Coords, EltTy.bits .f32 = 32 ∨ (Rect.block (s := S1x2048) S1x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x2048.size a
  hwx0_2 : ∀ i : grid0.Coords, EltTy.bits .f32 = 32 ∨ (Rect.block (s := S1x2048) S1x2048.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)

variable [Facts₀]

abbrev win0_0 : Pipeline.Window sig grid0 :=
  Pipeline.Window.ofSpec (Memref.whole main_v0) S1x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4096x2048 : Shape := ⟨2, ![4096, 2048]⟩
abbrev S_ : Shape := ⟨0, ![]⟩
abbrev S4096 : Shape := ⟨1, ![4096]⟩
abbrev S1 : Shape := ⟨1, ![1]⟩

abbrev nBuf : Space → Nat
  | .hbm => 23
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S_, .f32⟩
  | .hbm, ⟨11, _⟩ => ⟨S4096, .f32⟩
  | .hbm, ⟨12, _⟩ => ⟨S4096, .f32⟩
  | .hbm, ⟨13, _⟩ => ⟨S_, .f32⟩
  | .hbm, ⟨14, _⟩ => ⟨S4096, .f32⟩
  | .hbm, ⟨15, _⟩ => ⟨S4096, .f32⟩
  | .hbm, ⟨16, _⟩ => ⟨S1, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩

abbrev nD : Nat := 1
abbrev τ : Topo := Topo.v7x

variable {F : FTy → Type} [FloatOps F]

class Facts₀ : Prop where
  reducesTo_S4096x2048_S4096_d1 : S4096x2048.ReducesTo [1] S4096
  h_S_ : 0 < S_.numel
  bcast_S_S4096 : S_.BroadcastsInDim S4096 (![] : Fin 0 → Fin S4096.rank)
  slices_S4096_S1_4095 : S4096.Slices ![4095] S1
  shapeCasts_S1_S_ : S1.ShapeCasts S_

variable [Facts₀]

class Facts : Prop extends Facts₀ where

variable [Facts]
-- ==== Proof.Spec.lean ====
/-
  The specification. The three arguments are a mean array, a variance array and a target array, each
  4096 rows of 2048 lanes. Only the LAST row (row 4095) reaches the result. Per lane k of that row the term is

      (y k - mu k)² / sigma k + log (sigma k)

  and with s the sum of the 2048 lane terms and c the single-precision constant 2048 · log (2π) the result is

      (1/2 · (s + c)) · 2⁻²³.

  All of it is read on the extended reals, the quotient and the logarithm being the ideal instance's total
  functions, so the formula has a value at every input. The second half of this file is the one algebraic law
  the certificate needs: negating a product with -1/2, then dividing by 2048 and by 4096, is the product with
  1/2 followed by the product with 2⁻²³ — on EVERY extended real, the infinities included, because dividing by
  a nonzero real is multiplying by its reciprocal there, the sign moves through a product, and products associate.
  No finiteness of the inputs is used.
-/
import Idealize.ShloMosaic.PureOps.Ideal
import Idealize.ShloMosaic.PureOps.Ideal.Laws
import Idealize.ShloMosaic.Lib.ValueIdx

noncomputable section

open scoped BigOperators
open Idealize.ShloMosaic Idealize.ShloMosaic.ValueIdx

namespace Cert.LastRowLoss

/-- One lane's term: the squared deviation over the variance, plus the logarithm of the variance. -/
def laneTerm (mu sigma y : EReal) : EReal :=
  Ideal.div ((y - mu) * (y - mu)) sigma + Ideal.log sigma

/-- The sum of the lane terms over the 2048 lanes of row 4095. -/
def lastRowSum (mu sigma y : (⟨2, ![4096, 2048]⟩ : Shape).Idx → EReal) : EReal :=
  ∑ k : Fin 2048, laneTerm (mu (ix2 (4095 : Fin 4096) k)) (sigma (ix2 (4095 : Fin 4096) k)) (y (ix2 (4095 : Fin 4096) k))

/-- The closing arithmetic on the row sum: add the constant, halve, scale by 2⁻²³. The three literals are kept as
    the words both programs print. -/
def closing (s : EReal) : EReal :=
  (Ideal.ofBits .f32 0x3F000000#32 * (s + Ideal.ofBits .f32 0x456B3F8E#32)) * Ideal.ofBits .f32 0x34000000#32

/-- The result, a rank-0 array: the closing arithmetic of the last row's sum. -/
def loss (mu sigma y : (⟨2, ![4096, 2048]⟩ : Shape).Idx → EReal) : (⟨0, ![]⟩ : Shape).Idx → EReal :=
  fun _ => closing (lastRowSum mu sigma y)

/-! ## The literals that are not shared word for word -/

/-- `0x3F000000` is one half. -/
theorem ofBits_half : Ideal.ofBits .f32 0x3F000000#32 = ((1 / 2 : ℝ) : EReal) := by
  simp [Ideal.ofBits, Ideal.ieee, -EReal.coe_mul]; norm_num

/-- `0xBF000000` is minus one half. -/
theorem ofBits_negHalf : Ideal.ofBits .f32 0xBF000000#32 = ((-(1 / 2) : ℝ) : EReal) := by
  simp [Ideal.ofBits, Ideal.ieee, -EReal.coe_mul]; norm_num

/-- `0x45000000` is 2048. -/
theorem ofBits_2048 : Ideal.ofBits .f32 0x45000000#32 = ((2048 : ℝ) : EReal) := by
  simp [Ideal.ofBits, Ideal.ieee, -EReal.coe_mul]; norm_num

/-- `0x45800000` is 4096. -/
theorem ofBits_4096 : Ideal.ofBits .f32 0x45800000#32 = ((4096 : ℝ) : EReal) := by
  simp [Ideal.ofBits, Ideal.ieee, -EReal.coe_mul]; norm_num

/-- `0x34000000` is 2⁻²³, the reciprocal of 2048 · 4096. -/
theorem ofBits_twoPowNeg23 : Ideal.ofBits .f32 0x34000000#32 = ((1 / 8388608 : ℝ) : EReal) := by
  simp [Ideal.ofBits, Ideal.ieee, -EReal.coe_mul]; norm_num

/-! ## The law -/

/-- Negating the product with -1/2 and dividing by 2048 and then by 4096 is the product with 1/2 scaled by
    2⁻²³, at every extended real. -/
theorem scale_law (x : EReal) :
    Ideal.div (Ideal.div (-(Ideal.ofBits .f32 0xBF000000#32 * x)) (Ideal.ofBits .f32 0x45000000#32))
        (Ideal.ofBits .f32 0x45800000#32)
      = (Ideal.ofBits .f32 0x3F000000#32 * x) * Ideal.ofBits .f32 0x34000000#32 := by
  rw [ofBits_negHalf, ofBits_2048, ofBits_4096, ofBits_half, ofBits_twoPowNeg23,
    Ideal.div_coe (by norm_num : (2048 : ℝ) ≠ 0), Ideal.div_coe (by norm_num : (4096 : ℝ) ≠ 0),
    ← neg_mul, ← EReal.coe_neg, neg_neg, mul_assoc (_ * x), ← EReal.coe_mul]
  norm_num

end Cert.LastRowLoss

end
-- ==== Proof.RefValue.lean ====
/-
  The reference computes the specification. Read one operation at a time, its result at the one index of the
  rank-0 array is: the lane terms of EVERY row summed along the lanes (the initial value zero), the constant added,
  the product with -1/2 taken, entry 4095 of that column selected, the sign flipped, and the quotients by 2048 and
  by 4096 taken. Selecting entry 4095 makes the lane sum the one of row 4095, whose indices are (4095, k); the
  scalar law of the specification turns the sign flip and the two quotients into the product with 1/2 and with 2⁻²³.
-/
import proofs.«125682_j49237505081886_2_alg».proof.Proof.Gen.ReferenceIdeal.Read
import proofs.«125682_j49237505081886_2_alg».proof.Proof.Spec
import Idealize.ShloMosaic.Lib.Pipeline.Value
import Idealize.ShloMosaic.Lib.ValueIdx

noncomputable section

open scoped BigOperators

namespace Cert.ReferenceIdeal.RefValue

open Cert.ReferenceIdeal Cert.ReferenceIdeal.Read Cert.LastRowLoss
open Idealize.ShloMosaic Idealize.ShloMosaic.ValueIdx

/-- The reshape of a one-element vector to a rank-0 array reads the vector's one entry. -/
theorem val_main_v11_apply (x0 x1 x2 : (⟨S4096x2048, .f32⟩ : BufTy).Contents (Elt Ideal)) (i : S_.Idx) :
    val_main_v11 (F := Ideal) x0 x1 x2 i = val_main_v10 (F := Ideal) x0 x1 x2 (ix1 (0 : Fin 1)) := by
  unfold val_main_v11
  generalize val_main_v10 (F := Ideal) x0 x1 x2 = y
  refine shapeCast_apply y _ i (ix1 (0 : Fin 1)) ?_
  rw [Shape.rowMajor_val_one]
  exact (Shape.rowMajorPi_zero _ _).symm

/-- Entry 4095 of the column of row sums is summed over the indices (4095, k). -/
theorem lastRow_idx (k : Fin 2048) :
    idx_main_v5 (idx_main_v10 (ix1 (0 : Fin 1))) k = ix2 (4095 : Fin 4096) k :=
  funext fun a => Fin.ext (by match a with | ⟨0, _⟩ => rfl | ⟨1, _⟩ => rfl)

/-- The reference's result, as a function of the three argument arrays, is the specification. -/
theorem ref_eq_loss (x0 x1 x2 : (⟨S4096x2048, .f32⟩ : BufTy).Contents (Elt Ideal)) :
    val_main_v14 (F := Ideal) x0 x1 x2 = loss x0 x1 x2 := by
  funext i
  rw [val_main_v14_apply, val_main_v13_apply, val_main_v12_apply, val_main_v11_apply, val_main_v10_apply,
    val_main_v9_apply, val_main_v8_apply, val_main_v7_apply, val_main_v6_apply, val_main_v5_apply,
    val_main_cst_3_apply, val_main_cst_2_apply, val_main_cst_1_apply, val_main_cst_0_apply, val_main_cst_apply]
  simp only [val_main_v4_apply, val_main_v3_apply, val_main_v2_apply, val_main_v1_apply, val_main_v0_apply,
    lastRow_idx, Ideal.hostDivf_def, Ideal.hostNegf_def, Ideal.negf_def, Ideal.mulf_def, Ideal.addf_def,
    Ideal.subf_def, Ideal.hostUnary_log_def, Ideal.ofBits_def, Ideal.ofBits_zero_f32, zero_add]
  rw [scale_law]
  rfl

end Cert.ReferenceIdeal.RefValue

end
-- ==== Proof.KernelValue.lean ====
/-
  The kernel body's stored value. The body loads one row of 2048 lanes from each of its three input blocks,
  forms per lane the squared deviation over the variance plus the logarithm of the variance, sums the lanes, and
  applies the closing arithmetic; the one entry of its 1 × 1 output block is therefore the specification's
  `closing` of the sum of the lane terms of the three loaded rows.
-/
import proofs.«125682_j49237505081886_2_alg».proof.Proof.Gen.KernelIdeal.Skeleton
import proofs.«125682_j49237505081886_2_alg».proof.Proof.Spec
import Idealize.ShloMosaic.Lib.Pipeline.Value
import Idealize.ShloMosaic.Lib.ValueIdx
import Idealize.ShloMosaic.PureOps.Ideal.Laws

noncomputable section

open scoped BigOperators

namespace Cert.KernelIdeal.BodyValue

open Cert.KernelIdeal Cert.KernelIdeal.Gen Cert.LastRowLoss
open Idealize.ShloMosaic Idealize.ShloMosaic.ValueIdx

/-- The sum along the lanes of a one-row vector, read at its one entry: the sum over the 2048 lanes of row 0. -/
theorem laneSum_apply (src : FVec Ideal S1x2048 .f32) (h : S1x2048.Reduces [1] S1) (hφ : FKind.Formats .f32)
    (hacc : (0x00000000#32 : BitVec FTy.f32.bits) = FKind.add.neutral .f32 hφ) :
    multiReduction .add [1] S1 src 0x00000000#32 h hφ hacc (ix1 (0 : Fin 1))
      = ∑ k : Fin 2048, src (ix2 (0 : Fin 1) k) := by
  refine (Ideal.multiReduction_add_single src 0x00000000#32 h hφ hacc (ix1 (0 : Fin 1))).trans ?_
  refine Finset.sum_congr rfl fun k _ => congrArg src ?_
  funext a
  apply Fin.ext
  match a with
  | ⟨0, _⟩ => rfl
  | ⟨1, _⟩ => rfl

/-- A one-element vector viewed as a 1 × 1 block reads its one entry. -/
theorem oneByOne_apply (r : FVec Ideal S1 .f32) (hc : S1.ShapeCasts S1x1) (a b : Fin 1) :
    shapeCast S1x1 r hc (ix2 a b) = r (ix1 (0 : Fin 1)) := by
  refine shapeCast_apply r hc (ix2 a b) (ix1 (0 : Fin 1)) ?_
  rw [Shape.rowMajor_val_one, Shape.rowMajor_val_two]
  show 0 = a.val * 1 + b.val
  have ha := Fin.val_eq_zero a
  have hb := Fin.val_eq_zero b
  omega

/-- The body's stored value, as a function of the three loaded rows. -/
theorem pay_eq (v0 v2 v4 : Vec Ideal S1x2048 .f32) :
    k0_pay1 (F := Ideal) v0 v2 v4
      = fun _ => closing (∑ k : Fin 2048, laneTerm (v0 (ix2 (0 : Fin 1) k)) (v2 (ix2 (0 : Fin 1) k)) (v4 (ix2 (0 : Fin 1) k))) := by
  funext j
  obtain ⟨a, b, rfl⟩ : ∃ (a : Fin 1) (b : Fin 1), j = ix2 a b := ⟨j 0, j 1, eq_ix2 j⟩
  unfold k0_pay1 closing
  refine congrArg (fun s : EReal => (Ideal.ofBits .f32 0x3F000000#32 * (s + Ideal.ofBits .f32 0x456B3F8E#32))
    * Ideal.ofBits .f32 0x34000000#32) ?_
  refine (oneByOne_apply _ _ a b).trans ?_
  refine (laneSum_apply _ _ _ _).trans ?_
  refine Finset.sum_congr rfl fun k _ => ?_
  simp only [shapeCast_self]
  rfl

end Cert.KernelIdeal.BodyValue

end
-- ==== Proof.KernelRun.lean ====
/-
  The kernel's run, with its result named. The program slices row 4095 out of each argument (three 1 × 2048 rows),
  runs the body once (a grid of one point, every window's block its whole array), and reshapes the 1 × 1 output to the
  rank-0 result. So: each input block at lane k is the argument at (4095, k); the one write-back writes the whole
  1 × 1 array, which therefore ends holding the body's stored value; and the final reshape reads that array's
  one entry. Together the result is the specification of the three argument arrays.
-/
import proofs.«125682_j49237505081886_2_alg».proof.Proof.Gen.KernelIdeal.Frame
import proofs.«125682_j49237505081886_2_alg».proof.Proof.KernelValue
import Idealize.ShloMosaic.Lib.Pipeline.Value
import Idealize.ShloMosaic.Lib.StableHlo.Run
import Idealize.ShloMosaic.Lib.Tactic

noncomputable section

open scoped BigOperators
open Idealize.ShloMosaic Idealize.ShloMosaic.TcCoe Idealize.SL.Sem
open Idealize.ShloMosaic.Pipeline (Dat)

namespace Cert.KernelIdeal.RunValue

open Cert.KernelIdeal Cert.KernelIdeal.Gen Cert.LastRowLoss
open Idealize.ShloMosaic.ValueIdx

variable (m : (ℓ : Loc nD τ sig) → Buf (Elt Ideal) ℓ) (ρ : Dev nD → PrngReg)

theorem hz : (![0, 0] : Fin 2 → Nat) = fun _ => 0 := funext fun a => by fin_cases a <;> rfl

/-- What the body leaves in the output block, as a function of the three input blocks: the closing arithmetic
    of the sum of their lane terms. -/
theorem out_eq (x0 x1 x2 : Vec Ideal S1x2048 .f32) :
    out0_3 (F := Ideal) x0 x1 x2
      = fun _ => closing (∑ k : Fin 2048, laneTerm (x0 (ix2 (0 : Fin 1) k)) (x1 (ix2 (0 : Fin 1) k)) (x2 (ix2 (0 : Fin 1) k))) := by
  unfold out0_3
  rw [View.canon_unit_zero hz]
  simp only [View.ld_unit_zero (S := S1x2048) hz]
  exact BodyValue.pay_eq x0 x1 x2

/-- Lane k of a row sliced out at row 4095 is the array at (4095, k). -/
theorem lastRow_apply (X : S4096x2048.Idx → EReal) (h : S4096x2048.Slices ![4095, 0] S1x2048) (a : Fin 1) (k : Fin 2048) :
    extractStridedSlice S1x2048 ![4095, 0] X h (ix2 a k) = X (ix2 (4095 : Fin 4096) k) := by
  refine extractStridedSlice_apply ![4095, 0] X h (ix2 a k) (ix2 (4095 : Fin 4096) k) fun d => ?_
  have ha := Fin.val_eq_zero a
  match d with
  | ⟨0, _⟩ => show 4095 = 4095 + a.val; omega
  | ⟨1, _⟩ => show k.val = 0 + k.val; omega

/-- The three sliced rows, as the region finds them. -/
theorem V_row0 (c : Dev nD) :
    (V m c main_v0 : S1x2048.Idx → EReal)
      = extractStridedSlice S1x2048 ![4095, 0] (m ((c.tc : Thread nD τ).loc main_arg0)) slices_S4096x2048_S1x2048_4095_0 := by
  show StableHlo.after hostOps0 (fun b => m (c, b)) (Proc.devRef .tc main_v0) = _
  after_results <;> rfl
theorem V_row1 (c : Dev nD) :
    (V m c main_v1 : S1x2048.Idx → EReal)
      = extractStridedSlice S1x2048 ![4095, 0] (m ((c.tc : Thread nD τ).loc main_arg1)) slices_S4096x2048_S1x2048_4095_0 := by
  show StableHlo.after hostOps0 (fun b => m (c, b)) (Proc.devRef .tc main_v1) = _
  after_results <;> rfl
theorem V_row2 (c : Dev nD) :
    (V m c main_v2 : S1x2048.Idx → EReal)
      = extractStridedSlice S1x2048 ![4095, 0] (m ((c.tc : Thread nD τ).loc main_arg2)) slices_S4096x2048_S1x2048_4095_0 := by
  show StableHlo.after hostOps0 (fun b => m (c, b)) (Proc.devRef .tc main_v2) = _
  after_results <;> rfl

/-- Each input block at lane k is its argument at (4095, k): the block is the whole sliced row. -/
theorem iblk0_apply (c : Dev nD) (t : Fin cfg0.N) (k : Fin 2048) :
    (iblk m c 0 t : Vec Ideal S1x2048 .f32) (ix2 (0 : Fin 1) k)
      = (m ((c.tc : Thread nD τ).loc main_arg0) : S4096x2048.Idx → EReal) (ix2 (4095 : Fin 4096) k) := by
  have hi : win0_0.index t 0 = 0 ∧ win0_0.index t 1 = 0 := by obtain rfl := fin_N0 t; decide
  unfold iblk
  rw [View.read_apply]
  show (V m c main_v0 : S1x2048.Idx → EReal) _ = _
  rw [V_row0]
  refine (congrArg _ ?_).trans (lastRow_apply _ _ (0 : Fin 1) k)
  funext d
  apply Fin.ext
  match d with
  | ⟨0, _⟩ => show win0_0.index t 0 * 1 + 1 * 0 = 0; rw [hi.1]
  | ⟨1, _⟩ => show win0_0.index t 1 * 2048 + 1 * k.val = k.val; rw [hi.2]; omega

theorem iblk1_apply (c : Dev nD) (t : Fin cfg0.N) (k : Fin 2048) :
    (iblk m c 1 t : Vec Ideal S1x2048 .f32) (ix2 (0 : Fin 1) k)
      = (m ((c.tc : Thread nD τ).loc main_arg1) : S4096x2048.Idx → EReal) (ix2 (4095 : Fin 4096) k) := by
  have hi : win0_1.index t 0 = 0 ∧ win0_1.index t 1 = 0 := by obtain rfl := fin_N0 t; decide
  unfold iblk
  rw [View.read_apply]
  show (V m c main_v1 : S1x2048.Idx → EReal) _ = _
  rw [V_row1]
  refine (congrArg _ ?_).trans (lastRow_apply _ _ (0 : Fin 1) k)
  funext d
  apply Fin.ext
  match d with
  | ⟨0, _⟩ => show win0_1.index t 0 * 1 + 1 * 0 = 0; rw [hi.1]
  | ⟨1, _⟩ => show win0_1.index t 1 * 2048 + 1 * k.val = k.val; rw [hi.2]; omega

theorem iblk2_apply (c : Dev nD) (t : Fin cfg0.N) (k : Fin 2048) :
    (iblk m c 2 t : Vec Ideal S1x2048 .f32) (ix2 (0 : Fin 1) k)
      = (m ((c.tc : Thread nD τ).loc main_arg2) : S4096x2048.Idx → EReal) (ix2 (4095 : Fin 4096) k) := by
  have hi : win0_2.index t 0 = 0 ∧ win0_2.index t 1 = 0 := by obtain rfl := fin_N0 t; decide
  unfold iblk
  rw [View.read_apply]
  show (V m c main_v2 : S1x2048.Idx → EReal) _ = _
  rw [V_row2]
  refine (congrArg _ ?_).trans (lastRow_apply _ _ (0 : Fin 1) k)
  funext d
  apply Fin.ext
  match d with
  | ⟨0, _⟩ => show win0_2.index t 0 * 1 + 1 * 0 = 0; rw [hi.1]
  | ⟨1, _⟩ => show win0_2.index t 1 * 2048 + 1 * k.val = k.val; rw [hi.2]; omega

/-- The 1 × 1 output array after the run: what the body leaves at the grid's one point. -/
abbrev blockOut (c : Dev nD) : Buf (Elt Ideal) ((c.tc : Thread nD τ).loc main_v3) :=
  out0_3 (iblk m c 0 t0_0) (iblk m c 1 t0_0) (iblk m c 2 t0_0)

/-- The one write-back writes the whole array: block (0, 0) of a 1 × 1 array read through zero offsets is the array. -/
theorem flushed_eq (c : Dev nD) (t : Fin cfg0.N) (hf : (cfg0.win 3).flush t = true) :
    (dats m 0 c).flushed 3 t = ((cfg0.win 3).blk t).view.read (Elt Ideal) (blockOut m c) := by
  obtain rfl := fin_N0 t
  show (cfg0.win 3).cut (grid0.coords t0_0) ((dats m 0 c).after 3 t0_0) = _
  rw [after0_3]
  have hz' : (fun a => win0_3.index t0_0 a * main_v3.ty.shape.size a) = fun _ => 0 :=
    funext fun a => by fin_cases a <;> decide
  exact (Memref.read_access_unit_zero (Elt Ideal) main_v3 hz' (fun a => by rw [congrFun hz' a]; simp) (blockOut m c)).symm

/-- So the output array ends holding the body's stored value: the one point's block covers it. -/
theorem final_out (c : Dev nD) : (dats m 0 c).arrAt 3 cfg0.N = blockOut m c :=
  (dats m 0 c).arrAt_eq_of_cover 3 (blockOut m c) (flushed_eq m c) fun i =>
    ⟨t0_0, flush0_3 t0_0, by
      show i ∈ ((View.whole main_v3).slice (win0_3.rect t0_0)).set
      rw [View.set_slice_whole, Rect.mem_set_unit]
      intro a
      have h0 : (i 0 : Nat) < 1 := (i 0).isLt
      have h1 : (i 1 : Nat) < 1 := (i 1).isLt
      match a with
      | ⟨0, _⟩ => show win0_3.index t0_0 0 * win0_3.size 0 ≤ (i 0 : Nat) ∧ (i 0 : Nat) < win0_3.index t0_0 0 * win0_3.size 0 + win0_3.xsize (grid0.coords t0_0) 0
                  rw [show win0_3.index t0_0 0 * win0_3.size 0 = 0 from by decide +kernel, show win0_3.xsize (grid0.coords t0_0) 0 = 1 from by decide +kernel]; omega
      | ⟨1, _⟩ => show win0_3.index t0_0 1 * win0_3.size 1 ≤ (i 1 : Nat) ∧ (i 1 : Nat) < win0_3.index t0_0 1 * win0_3.size 1 + win0_3.xsize (grid0.coords t0_0) 1
                  rw [show win0_3.index t0_0 1 * win0_3.size 1 = 0 from by decide +kernel, show win0_3.xsize (grid0.coords t0_0) 1 = 1 from by decide +kernel]; omega⟩

/-- The body's stored value at the three input blocks is the specification's closing arithmetic of the last row's sum. -/
theorem blockOut_eq (c : Dev nD) :
    blockOut m c = fun _ => closing (lastRowSum (m ((c.tc : Thread nD τ).loc main_arg0)) (m ((c.tc : Thread nD τ).loc main_arg1))
      (m ((c.tc : Thread nD τ).loc main_arg2))) := by
  refine (out_eq _ _ _).trans ?_
  funext _
  refine congrArg closing (Finset.sum_congr rfl fun k _ => ?_)
  rw [iblk0_apply m c t0_0 k, iblk1_apply m c t0_0 k, iblk2_apply m c t0_0 k]

/-- The rank-0 view of a 1 × 1 array reads its one entry. -/
theorem scalar_of_oneByOne (r : S1x1.Idx → EReal) (hc : S1x1.ShapeCasts S_) (i : S_.Idx) :
    shapeCast S_ r hc i = r (ix2 (0 : Fin 1) (0 : Fin 1)) := by
  refine shapeCast_apply r hc i (ix2 (0 : Fin 1) (0 : Fin 1)) ?_
  rw [Shape.rowMajor_val_two]
  exact (Shape.rowMajorPi_zero _ _).symm

/-- The result after the host's final reshape: the specification of the three arguments. -/
theorem result_eq (c : Dev nD) :
    Pipeline.afterTail₀ cfgs (dats m) 0 (V0 m) [hostOps1] c main_v4
      = loss (m ((c.tc : Thread nD τ).loc main_arg0)) (m ((c.tc : Thread nD τ).loc main_arg1)) (m ((c.tc : Thread nD τ).loc main_arg2)) := by
  unfold Pipeline.afterTail₀
  show StableHlo.after hostOps1 _ (Proc.devRef .tc main_v4) = _
  after_results
  rw [(Pipeline.withArrays_arr spec0 launch0.win.arr_inj c _ _ 3).trans (final_out m c)]
  show shapeCast S_ (blockOut m c) _ = _
  funext i
  rw [scalar_of_oneByOne, blockOut_eq]
  rfl

/-- The run, read: the result at the specification of the argument arrays, the arguments unchanged. -/
theorem run : θ_run defs (onTc (τ := τ) (main (F := Ideal))) ⟨m, fun _ => 0, ρ⟩ fun r => ∀ c : Dev nD,
      r.2.mem ((c.tc : Thread nD τ).loc main_v4)
        = loss (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
    ⟨((h c).2 main_v4 (Pipeline.mem_restRefs_of main_v4 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.KernelIdeal.RunValue

end
-- ==== Proof.lean ====
/-
  The claims. The kernel evaluates a diagonal-Gaussian negative log-likelihood of the LAST of 4096 samples, scaled:
  with s the sum over the 2048 lanes of row 4095 of (y - mu)² / sigma + log sigma and c the single-precision
  constant 2048 · log (2π), it returns (1/2 · (s + c)) · 2⁻²³. The reference forms the same lane terms for every row,
  sums each row, adds c, multiplies by -1/2, selects row 4095, flips the sign, and divides by 2048 and then by 4096.
  On the extended reals these are one function of the three argument arrays (`Cert.LastRowLoss.loss`): a sum does not
  depend on its grouping, the two programs' quotient and logarithm are one total function each, and
  -((-1/2) · x) / 2048 / 4096 = (1/2 · x) · 2⁻²³ at every extended real x (`Cert.LastRowLoss.scale_law`), since 2048 · 4096 = 2²³.
  Nothing here needs the inputs finite.
  The three frames are the generated ones (the reference's is its generated run with the result dropped); the
  idealization rewrote no operation, so the preserved-meaning claim is trivial; the equality of results joins the
  kernel's run (`Cert.KernelIdeal.RunValue.run`) and the reference's (`Cert.ReferenceIdeal.RefValue.ref_eq_loss`) at the
  same function of arguments that agree.
-/
import proofs.«125682_j49237505081886_2_alg».proof.Defs
import proofs.«125682_j49237505081886_2_alg».proof.Proof.Gen.Kernel
import proofs.«125682_j49237505081886_2_alg».proof.Proof.Gen.Kernel.Frame
import proofs.«125682_j49237505081886_2_alg».proof.Proof.Gen.KernelIdeal
import proofs.«125682_j49237505081886_2_alg».proof.Proof.Gen.KernelIdeal.Frame
import proofs.«125682_j49237505081886_2_alg».proof.Proof.Gen.ReferenceIdeal
import proofs.«125682_j49237505081886_2_alg».proof.Proof.Gen.Pre_finite_inputs
import proofs.«125682_j49237505081886_2_alg».proof.Proof.Gen.ReferenceIdeal.Run
import proofs.«125682_j49237505081886_2_alg».proof.Proof.Gen.ReferenceIdeal.Read
import proofs.«125682_j49237505081886_2_alg».proof.Proof.RefValue
import proofs.«125682_j49237505081886_2_alg».proof.Proof.KernelRun
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the result's value dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten on the way to the extended reals: nothing to preserve. -/
theorem preserves : Cert.preserves_Kernel_KernelIdeal := trivial

/-- From arguments that agree, both programs end with the result at the specification of those arguments. -/
theorem algebraic : Cert.algebraic_KernelIdeal_ReferenceIdeal := by
  intro m ρ m' ρ' _ hagree
  refine ⟨_, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.ReferenceIdeal.RefValue.ref_eq_loss,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
